-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩
abbrev S1x160000 : Shape := ⟨2, ![1, 160000]⟩
abbrev S160000 : Shape := ⟨1, ![160000]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  slices_S2x160000_S1x160000_1_0 : S2x160000.Slices ![1, 0] S1x160000
  shapeCasts_S1x160000_S160000 : S1x160000.ShapeCasts S160000
  bcast_S_S160000 : S_.BroadcastsInDim S160000 (![] : Fin 0 → Fin S160000.rank)
  reducesTo_S160000_S_d0 : S160000.ReducesTo [0] S_

variable [Facts]

def fn_part1 {F : FTy → Type} [FloatOps F] (main_arg1 : IVec S2x160000 32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : IVec S1x160000 32 := (extractStridedSlice S1x160000 ![1, 0] · slices_S2x160000_S1x160000_1_0) main_arg1
  let main_v25 : IVec S160000 32 := shapeCast S160000 main_v24 shapeCasts_S1x160000_S160000
  let main_c_8 : IVec S_ 32 := constantI S_ 32 0#32
  let main_v26 : IVec S160000 32 := broadcastInDim S160000 ![] bcast_S_S160000 main_c_8
  let main_v27 : IVec S160000 1 := cmpi .sge main_v25 main_v26
  let main_c_9 : IVec S_ 1 := constantI S_ 1 1#1
  let main_v28 : IVec S_ 1 := (fun x v => Host.reduce IntOp.andi x v reducesTo_S160000_S_d0 h_S_) main_v27 main_c_9
  let main_v29 : IVec S_ 1 := andi main_v23 main_v28
  main_v29

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S1000x512 : Shape := ⟨2, ![1000, 512]⟩

abbrev nBuf : Space → Nat
  | .hbm => 33
  | .vmem => 8
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S160000x1, .i32⟩
  | .hbm, ⟨18, _⟩ => ⟨S160000x512, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S10000x512, .f32⟩
  | .hbm, ⟨28, _⟩ => ⟨S512x512, .bf16⟩
  | .hbm, ⟨29, _⟩ => ⟨S512x512, .bf16⟩
  | .hbm, ⟨30, _⟩ => ⟨S1x512, .f32⟩
  | .hbm, ⟨31, _⟩ => ⟨S1x512, .f32⟩
  | .hbm, ⟨32, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S1000x512, .f32⟩
  | .local _ .vmem, ⟨7, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v17) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 35
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S160000x1, .i32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S10000x512, .f32⟩
  | .hbm, ⟨24, _⟩ => ⟨S10000x512, .f32⟩
  | .hbm, ⟨25, _⟩ => ⟨S1x512, .f32⟩
  | .hbm, ⟨26, _⟩ => ⟨S10000x512, .f32⟩
  | .hbm, ⟨27, _⟩ => ⟨S10000x512, .f32⟩
  | .hbm, ⟨28, _⟩ => ⟨S_, .f32⟩
  | .hbm, ⟨29, _⟩ => ⟨S10000x512, .f32⟩
  | .hbm, ⟨30, _⟩ => ⟨S10000x512, .f32⟩
  | .hbm, ⟨31, _⟩ => ⟨S10000x512, .f32⟩
  | .hbm, ⟨32, _⟩ => ⟨S1x512, .f32⟩
  | .hbm, ⟨33, _⟩ => ⟨S10000x512, .f32⟩
  | .hbm, ⟨34, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Mlp.lean ====
/-
  The two dense layers of the message-passing step, as plain functions over the extended reals.

  A node's aggregated feature row `x` (512 numbers) goes through a first layer `x ↦ max (x · W₁ + b₁) 0` and a second
  layer `h ↦ h · W₂ + b₂`; both are written as sums over the 512 contracted positions, entry by entry. The whole
  result array is the second layer's output for every node row. Nothing here needs the entries to be finite: only
  sums, products and a maximum appear, each spelt the same way on both sides of the comparison.
-/
import Idealize.ShloMosaic.PureOps.Ideal
import Idealize.ShloMosaic.Lib.ValueIdx

noncomputable section

namespace Cert.Gin

open Idealize.ShloMosaic Idealize.ShloMosaic.ValueIdx

/-- Hidden unit `k` of a feature row `x`: the rectified affine form `max (∑ c, x c · W₁ c k + b₁ k) 0`. -/
def hidden (x : Fin 512 → EReal) (W1 : Fin 512 → Fin 512 → EReal) (b1 : Fin 512 → EReal) (k : Fin 512) : EReal :=
  max ((∑ c : Fin 512, x c * W1 c k) + b1 k) 0

/-- Output unit `j` of a feature row `x`: `∑ k, hidden k · W₂ k j + b₂ j`. -/
def outRow (x : Fin 512 → EReal) (W1 : Fin 512 → Fin 512 → EReal) (b1 : Fin 512 → EReal)
    (W2 : Fin 512 → Fin 512 → EReal) (b2 : Fin 512 → EReal) (j : Fin 512) : EReal :=
  (∑ k : Fin 512, hidden x W1 b1 k * W2 k j) + b2 j

/-- The result array: entry `(r, j)` is output unit `j` of row `r` of the aggregated features `X`. -/
def mlp (X : (⟨2, ![10000, 512]⟩ : Shape).Idx → EReal) (W1 : (⟨2, ![512, 512]⟩ : Shape).Idx → EReal)
    (b1 : (⟨1, ![512]⟩ : Shape).Idx → EReal) (W2 : (⟨2, ![512, 512]⟩ : Shape).Idx → EReal)
    (b2 : (⟨1, ![512]⟩ : Shape).Idx → EReal) : (⟨2, ![10000, 512]⟩ : Shape).Idx → EReal :=
  fun i => outRow (fun c => X (ix2 (n0 := 10000) (i 0) c)) (fun c k => W1 (ix2 c k)) (fun k => b1 (ix1 k))
    (fun k j => W2 (ix2 k j)) (fun j => b2 (ix1 j)) (i 1)

/-- The result array at an entry given by its coordinates. -/
theorem mlp_entry (X : (⟨2, ![10000, 512]⟩ : Shape).Idx → EReal) (W1 : (⟨2, ![512, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (r : Fin 10000) (j : Fin 512) :
    mlp X W1 b1 W2 b2 (ix2 r j) = outRow (fun c => X (ix2 r c)) (fun c k => W1 (ix2 c k)) (fun k => b1 (ix1 k))
      (fun k j => W2 (ix2 k j)) (fun j => b2 (ix1 j)) j := rfl

end Cert.Gin

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.Payload.lean ====
/-
  What the kernel body computes for one block of 1000 node rows, read at an entry.

  The body multiplies the block of aggregated features by the first weight matrix on the matrix unit (into a zero
  accumulator), adds the first bias row to every row, takes the maximum with zero, multiplies by the second weight
  matrix and adds the second bias row. Changes of float format are the identity on the extended reals. Read at row
  `p` and column `q` of the block this is output unit `q` of the two dense layers applied to row `p` of the block.
-/
import proofs.«132687_j44882408243752_2_alg».proof.Proof.Gen.KernelIdeal.Skeleton
import proofs.«132687_j44882408243752_2_alg».proof.Proof.Mlp
import proofs.«132687_j44882408243752_2_alg».proof.Proof.LibMatSum
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- A one-row block cast to its own shape and repeated down the 1000 rows reads, at `(p, q)`, the row at `q`. -/
theorem biasRow_entry (x : FVec Ideal S1x512 .f32) (p : Fin 1000) (q : Fin 512) :
    broadcastTo S1000x512 (shapeCast S1x512 x shapeCasts_S1x512_S1x512) broadcasts_S1x512_S1000x512 (ix2 p q)
      = x (ix2 (0 : Fin 1) q) := by
  rw [shapeCast_self]
  exact broadcastTo_apply x broadcasts_S1x512_S1000x512 (ix2 p q) (ix2 (0 : Fin 1) q) (fun a => match a with
    | ⟨0, _⟩ => by show 0 = if (1 : ℕ) = 1 then 0 else p.val; rw [if_pos rfl]
    | ⟨1, _⟩ => by show q.val = if (512 : ℕ) = 1 then 0 else q.val; rw [if_neg (by decide)])

/-- The block's first layer at `(p, k)`: hidden unit `k` of row `p`. -/
theorem hidden_entry (x0 : FVec Ideal S1000x512 .f32) (x1 : FVec Ideal S512x512 .bf16) (x2 : FVec Ideal S1x512 .f32)
    (p : Fin 1000) (k : Fin 512) :
    maximumf (addf (matmul dot_S1000x512_S512x512_S1000x512_1_0_0_1_n_n none
          (truncf .bf16 (shapeCast S1000x512 x0 shapeCasts_S1000x512_S1000x512) bitsLt_bf16_f32)
          (shapeCast S512x512 x1 shapeCasts_S512x512_S512x512) (constant S1000x512 .f32 0x00000000#32))
        (broadcastTo S1000x512 (shapeCast S1x512 x2 shapeCasts_S1x512_S1x512) broadcasts_S1x512_S1000x512))
      (broadcast S1000x512 (Scalar.ofBits (F := Ideal) .f32 0x00000000#32)) (ix2 p k)
      = Cert.Gin.hidden (fun c => x0 (ix2 p c)) (fun c k => x1 (ix2 c k)) (fun k => x2 (ix2 (0 : Fin 1) k)) k := by
  show max (matmul dot_S1000x512_S512x512_S1000x512_1_0_0_1_n_n none
          (truncf .bf16 (shapeCast S1000x512 x0 shapeCasts_S1000x512_S1000x512) bitsLt_bf16_f32)
          (shapeCast S512x512 x1 shapeCasts_S512x512_S512x512) (constant S1000x512 .f32 0x00000000#32) (ix2 p k)
        + broadcastTo S1000x512 (shapeCast S1x512 x2 shapeCasts_S1x512_S1x512) broadcasts_S1x512_S1000x512 (ix2 p k))
      (Ideal.ofBits .f32 0x00000000#32) = _
  rw [biasRow_entry, Ideal.ofBits_zero_f32, shapeCast_self, shapeCast_self]
  unfold Cert.Gin.hidden
  refine congrArg (fun s => max (s + x2 (ix2 (0 : Fin 1) k)) 0) ?_
  exact MatSum.matmul_zero_entry dot_S1000x512_S512x512_S1000x512_1_0_0_1_n_n_wf none _ x1 p k

/-- The body's stored value at `(p, q)`: output unit `q` of the two layers applied to row `p` of the feature block. -/
theorem payload_entry (x0 : FVec Ideal S1000x512 .f32) (x1 : FVec Ideal S512x512 .bf16) (x2 : FVec Ideal S1x512 .f32)
    (x3 : FVec Ideal S512x512 .bf16) (x4 : FVec Ideal S1x512 .f32) (p : Fin 1000) (q : Fin 512) :
    k0_pay1 (F := Ideal) x0 x1 x2 x3 x4 (ix2 p q)
      = Cert.Gin.outRow (fun c => x0 (ix2 p c)) (fun c k => x1 (ix2 c k)) (fun k => x2 (ix2 (0 : Fin 1) k))
          (fun k j => x3 (ix2 k j)) (fun j => x4 (ix2 (0 : Fin 1) j)) q := by
  unfold k0_pay1
  show matmul dot_S1000x512_S512x512_S1000x512_1_0_0_1_n_n none _ _ (constant S1000x512 .f32 0x00000000#32) (ix2 p q)
      + broadcastTo S1000x512 (shapeCast S1x512 x4 shapeCasts_S1x512_S1x512) broadcasts_S1x512_S1000x512 (ix2 p q) = _
  rw [biasRow_entry]
  unfold Cert.Gin.outRow
  refine congrArg (· + x4 (ix2 (0 : Fin 1) q)) ?_
  refine (MatSum.matmul_zero_entry dot_S1000x512_S512x512_S1000x512_1_0_0_1_n_n_wf none _ _ p q).trans ?_
  refine Finset.sum_congr rfl fun k _ => ?_
  rw [shapeCast_self x3]
  exact congrArg (· * x3 (ix2 k q)) (hidden_entry x0 x1 x2 p k)

end Cert.KernelIdeal.Hand

end
-- ==== Proof.KernelAgg.lean ====
/-
  The aggregation step as the kernel's program spells it on the host, before its one kernel launch: for every edge
  the sender's feature row is gathered and accumulated onto the node features at the receiver's row, both index
  vectors first having their negative entries wrapped by the number of rows.
-/
import proofs.«132687_j44882408243752_2_alg».proof.Proof.Gen.KernelIdeal
import Idealize.ShloMosaic.PureOps.Ideal

noncomputable section

namespace Cert.KernelIdeal.Hand

open Cert.KernelIdeal Cert.KernelIdeal.Gen Idealize.ShloMosaic

/-- The aggregated features as the kernel's program computes them from the node features `h` and the edge list `e`:
    the sender rows (negative sender indices wrapped) accumulated onto `h` at the receiver rows (negative receiver
    indices wrapped). -/
def agg (h : FVec Ideal S10000x512 .f32) (e : IVec S2x160000 32) : FVec Ideal S10000x512 .f32 :=
  Host.scatterAdd scatter_S10000x512_S160000x1_S160000x512_1_0_0_1 h
    (broadcastInDim S160000x1 ![0] bcast_S160000_S160000x1_0
      (select (cmpi .slt (shapeCast _ (extractStridedSlice S1x160000 ![1, 0] e slices_S2x160000_S1x160000_1_0) shapeCasts_S1x160000_S160000)
          (broadcastInDim S160000 ![] bcast_S_S160000 (constantI S_ 32 0#32)))
        (addi (shapeCast _ (extractStridedSlice S1x160000 ![1, 0] e slices_S2x160000_S1x160000_1_0) shapeCasts_S1x160000_S160000)
          (broadcastInDim S160000 ![] bcast_S_S160000 (constantI S_ 32 10000#32)))
        (shapeCast _ (extractStridedSlice S1x160000 ![1, 0] e slices_S2x160000_S1x160000_1_0) shapeCasts_S1x160000_S160000)))
    (Host.gather gather_S10000x512_S160000x1_S160000x512_1_0_n_n_0_1_1512 h
      (broadcastInDim S160000x1 ![0] bcast_S160000_S160000x1_0
        (select (cmpi .slt (shapeCast _ (extractStridedSlice S1x160000 ![0, 0] e slices_S2x160000_S1x160000_0_0) shapeCasts_S1x160000_S160000)
            (broadcastInDim S160000 ![] bcast_S_S160000 (constantI S_ 32 0#32)))
          (addi (shapeCast _ (extractStridedSlice S1x160000 ![0, 0] e slices_S2x160000_S1x160000_0_0) shapeCasts_S1x160000_S160000)
            (broadcastInDim S160000 ![] bcast_S_S160000 (constantI S_ 32 10000#32)))
          (shapeCast _ (extractStridedSlice S1x160000 ![0, 0] e slices_S2x160000_S1x160000_0_0) shapeCasts_S1x160000_S160000))))

end Cert.KernelIdeal.Hand

end
-- ==== Proof.Blocks.lean ====
/-
  From the kernel's blocks to its whole result array.

  The kernel runs over ten grid points; point `t` reads rows `1000 t … 1000 t + 999` of the aggregated features, the
  two weight matrices and the two bias rows whole, and writes rows `1000 t … 1000 t + 999` of the result. The arrays the
  region finds are host-side values: the aggregated features are the accumulating scatter (left folded here), the
  weights are the arguments with their float format changed (the identity on the extended reals), the bias rows are the
  bias vectors viewed as one-row matrices. So what point `t` writes back is block `t` of the two dense layers of the
  aggregated features, the ten blocks cover the array, and the array ends holding that function everywhere.
-/
import proofs.«132687_j44882408243752_2_alg».proof.Proof.Gen.KernelIdeal.Value
import proofs.«132687_j44882408243752_2_alg».proof.Proof.Payload
import proofs.«132687_j44882408243752_2_alg».proof.Proof.KernelAgg
import Idealize.ShloMosaic.Lib.Pipeline.Value
import Idealize.ShloMosaic.Lib.StableHlo.Run

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## The arrays the region finds -/

set_option maxHeartbeats 1000000 in
/-- The first window's array is the aggregated features. -/
theorem found_features (c : Dev nD) :
    (V m c main_v17 : S10000x512.Idx → EReal) = agg (m ((c : Thread nD τ).loc main_arg0)) (m ((c : Thread nD τ).loc main_arg1)) := by
  dsimp only [Gen.V, Gen.hostOps0]; after_results_simp; rfl

/-- The first weight matrix as found, at an entry: the argument's entry. -/
theorem found_w1 (c : Dev nD) (a b : Fin 512) :
    (V m c main_v18 : S512x512.Idx → EReal) (ix2 a b) = (m ((c : Thread nD τ).loc main_arg2) : S512x512.Idx → EReal) (ix2 a b) := by
  have e : (V m c main_v18 : S512x512.Idx → EReal) = truncf (F := Ideal) .bf16 (m ((c : Thread nD τ).loc main_arg2)) bitsLt_bf16_f32 := by
    dsimp only [Gen.V, Gen.hostOps0]; after_results
  rw [e]; rfl

/-- The second weight matrix as found, at an entry: the argument's entry. -/
theorem found_w2 (c : Dev nD) (a b : Fin 512) :
    (V m c main_v19 : S512x512.Idx → EReal) (ix2 a b) = (m ((c : Thread nD τ).loc main_arg4) : S512x512.Idx → EReal) (ix2 a b) := by
  have e : (V m c main_v19 : S512x512.Idx → EReal) = truncf (F := Ideal) .bf16 (m ((c : Thread nD τ).loc main_arg4)) bitsLt_bf16_f32 := by
    dsimp only [Gen.V, Gen.hostOps0]; after_results
  rw [e]; rfl

/-- A vector viewed as a one-row matrix reads, at `(0, k)`, the vector at `k`. -/
theorem rowView_entry (b : S512.Idx → EReal) (k : Fin 512) :
    shapeCast S1x512 b shapeCasts_S512_S1x512 (ix2 (0 : Fin 1) k) = b (ix1 k) :=
  shapeCast_apply b shapeCasts_S512_S1x512 _ _ (by
    rw [Shape.rowMajor_val_one, Shape.rowMajor_val_two]
    show k.val = 0 * 512 + k.val
    omega)

/-- The first bias row as found, at `(0, k)`: the bias vector at `k`. -/
theorem found_b1 (c : Dev nD) (k : Fin 512) :
    (V m c main_v20 : S1x512.Idx → EReal) (ix2 (0 : Fin 1) k) = (m ((c : Thread nD τ).loc main_arg3) : S512.Idx → EReal) (ix1 k) := by
  have e : (V m c main_v20 : S1x512.Idx → EReal) = shapeCast S1x512 (m ((c : Thread nD τ).loc main_arg3) : S512.Idx → EReal) shapeCasts_S512_S1x512 := by
    dsimp only [Gen.V, Gen.hostOps0]; after_results; rfl
  rw [e]; exact rowView_entry _ k

/-- The second bias row as found, at `(0, k)`: the bias vector at `k`. -/
theorem found_b2 (c : Dev nD) (k : Fin 512) :
    (V m c main_v21 : S1x512.Idx → EReal) (ix2 (0 : Fin 1) k) = (m ((c : Thread nD τ).loc main_arg5) : S512.Idx → EReal) (ix1 k) := by
  have e : (V m c main_v21 : S1x512.Idx → EReal) = shapeCast S1x512 (m ((c : Thread nD τ).loc main_arg5) : S512.Idx → EReal) shapeCasts_S512_S1x512 := by
    dsimp only [Gen.V, Gen.hostOps0]; after_results; rfl
  rw [e]; exact rowView_entry _ k

/-! ## One block -/

/-- A block's stored value at an entry is the result function at the array entry the block entry sits at, when the
    feature block's row is the array's row and the other blocks are the whole weight and bias arrays. -/
theorem block_entry (x0 : FVec Ideal S1000x512 .f32) (x1 : FVec Ideal S512x512 .bf16) (x2 : FVec Ideal S1x512 .f32)
    (x3 : FVec Ideal S512x512 .bf16) (x4 : FVec Ideal S1x512 .f32)
    (X : S10000x512.Idx → EReal) (W1 : S512x512.Idx → EReal) (b1 : S512.Idx → EReal) (W2 : S512x512.Idx → EReal) (b2 : S512.Idx → EReal)
    (y : S1000x512.Idx) (i : S10000x512.Idx)
    (h0 : ∀ c : Fin 512, x0 (ix2 (n0 := 1000) (y 0) c) = X (ix2 (n0 := 10000) (i 0) c))
    (h1 : ∀ c k : Fin 512, x1 (ix2 c k) = W1 (ix2 c k)) (h2 : ∀ k : Fin 512, x2 (ix2 (0 : Fin 1) k) = b1 (ix1 k))
    (h3 : ∀ k j : Fin 512, x3 (ix2 k j) = W2 (ix2 k j)) (h4 : ∀ j : Fin 512, x4 (ix2 (0 : Fin 1) j) = b2 (ix1 j))
    (hc : (y 1).val = (i 1).val) :
    k0_pay1 (F := Ideal) x0 x1 x2 x3 x4 y = Cert.Gin.mlp X W1 b1 W2 b2 i := by
  obtain ⟨p, q, rfl⟩ : ∃ (p : Fin 1000) (q : Fin 512), y = ix2 p q := ⟨y 0, y 1, eq_ix2 y⟩
  obtain ⟨r, j, rfl⟩ : ∃ (r : Fin 10000) (j : Fin 512), i = ix2 r j := ⟨i 0, i 1, eq_ix2 i⟩
  obtain rfl : q = j := Fin.ext hc
  have e0 : (fun c : Fin 512 => x0 (ix2 p c)) = fun c => X (ix2 r c) := funext h0
  have e1 : (fun c k : Fin 512 => (x1 (ix2 c k) : EReal)) = fun c k => W1 (ix2 c k) := funext fun c => funext fun k => h1 c k
  have e2 : (fun k : Fin 512 => x2 (ix2 (0 : Fin 1) k)) = fun k => b1 (ix1 k) := funext h2
  have e3 : (fun k j : Fin 512 => (x3 (ix2 k j) : EReal)) = fun k j => W2 (ix2 k j) := funext fun k => funext fun j => h3 k j
  have e4 : (fun j : Fin 512 => x4 (ix2 (0 : Fin 1) j)) = fun j => b2 (ix1 j) := funext h4
  rw [payload_entry, Cert.Gin.mlp_entry, e0, e1, e2, e3, e4]

/-! ## The index maps, decided over the ten grid points -/

/-- The feature window and the result window sit at block row `t`, column block 0; every other window at block (0, 0). -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What a point writes back, the cover, the whole array -/

/-- Point `t` writes back block `t` of the two dense layers of the aggregated features. -/
theorem flushed_eq (c : Dev nD) (t : Fin cfg0.N) :
    (dats m 0 c).flushed 5 t = ((cfg0.win 5).blk t).view.read (Elt Ideal)
      (Cert.Gin.mlp (V m c main_v17) (m ((c : Thread nD τ).loc main_arg2)) (m ((c : Thread nD τ).loc main_arg3))
        (m ((c : Thread nD τ).loc main_arg4)) (m ((c : Thread nD τ).loc main_arg5))) := by
  rw [flushed5]
  unfold out0_5
  rw [View.canon_unit_zero offsets_zero]
  simp only [View.ld_unit_zero (S := S1000x512) offsets_zero, View.ld_unit_zero (S := S512x512) offsets_zero,
    View.ld_unit_zero (S := S1x512) offsets_zero]
  obtain ⟨e00, e01, e10, e11, e20, e21, e30, e31, e40, e41, e50, e51⟩ := idx_facts t
  funext j
  show k0_pay1 (iblk m c 0 t) (iblk m c 1 t) (iblk m c 2 t) (iblk m c 3 t) (iblk m c 4 t) j
    = Cert.Gin.mlp (V m c main_v17) (m ((c : Thread nD τ).loc main_arg2)) (m ((c : Thread nD τ).loc main_arg3))
        (m ((c : Thread nD τ).loc main_arg4)) (m ((c : Thread nD τ).loc main_arg5)) (((cfg0.win 5).blk t).view.emb j)
  refine block_entry (iblk m c 0 t) (iblk m c 1 t) (iblk m c 2 t) (iblk m c 3 t) (iblk m c 4 t) _ _ _ _ _ j
    (((cfg0.win 5).blk t).view.emb j) (fun c' => ?_) (fun c' k => ?_) (fun k => ?_) (fun k j' => ?_) (fun j' => ?_) ?_
  · show (V m c main_v17 : S10000x512.Idx → EReal) (((cfg0.win 0).blk t).view.emb (ix2 (n0 := 1000) (j 0) c'))
      = (V m c main_v17 : S10000x512.Idx → EReal) (ix2 (n0 := 10000) ((((cfg0.win 5).blk t).view.emb j) 0) c')
    refine congrArg (V m c main_v17 : S10000x512.Idx → EReal) (funext fun a => Fin.ext ?_)
    match a with
    | ⟨0, _⟩ => show win0_0.index t (0 : Fin 2) * 1000 + 1 * (j 0).val = win0_5.index t (0 : Fin 2) * 1000 + 1 * (j 0).val; rw [e00]
    | ⟨1, _⟩ => show win0_0.index t (1 : Fin 2) * 512 + 1 * c'.val = c'.val; rw [e01]; omega
  · show (V m c main_v18 : S512x512.Idx → EReal) (((cfg0.win 1).blk t).view.emb (ix2 c' k)) = _
    have he : ((cfg0.win 1).blk t).view.emb (ix2 c' k) = ix2 c' k := funext fun a => Fin.ext (by
      match a with
      | ⟨0, _⟩ => show win0_1.index t (0 : Fin 2) * 512 + 1 * c'.val = c'.val; rw [e10]; omega
      | ⟨1, _⟩ => show win0_1.index t (1 : Fin 2) * 512 + 1 * k.val = k.val; rw [e11]; omega)
    rw [he]; exact found_w1 m c c' k
  · show (V m c main_v20 : S1x512.Idx → EReal) (((cfg0.win 2).blk t).view.emb (ix2 (0 : Fin 1) k)) = _
    have he : ((cfg0.win 2).blk t).view.emb (ix2 (0 : Fin 1) k) = ix2 (0 : Fin 1) k := funext fun a => Fin.ext (by
      match a with
      | ⟨0, _⟩ => show win0_2.index t (0 : Fin 2) * 1 + 1 * 0 = 0; rw [e20]
      | ⟨1, _⟩ => show win0_2.index t (1 : Fin 2) * 512 + 1 * k.val = k.val; rw [e21]; omega)
    rw [he]; exact found_b1 m c k
  · show (V m c main_v19 : S512x512.Idx → EReal) (((cfg0.win 3).blk t).view.emb (ix2 k j')) = _
    have he : ((cfg0.win 3).blk t).view.emb (ix2 k j') = ix2 k j' := funext fun a => Fin.ext (by
      match a with
      | ⟨0, _⟩ => show win0_3.index t (0 : Fin 2) * 512 + 1 * k.val = k.val; rw [e30]; omega
      | ⟨1, _⟩ => show win0_3.index t (1 : Fin 2) * 512 + 1 * j'.val = j'.val; rw [e31]; omega)
    rw [he]; exact found_w2 m c k j'
  · show (V m c main_v21 : S1x512.Idx → EReal) (((cfg0.win 4).blk t).view.emb (ix2 (0 : Fin 1) j')) = _
    have he : ((cfg0.win 4).blk t).view.emb (ix2 (0 : Fin 1) j') = ix2 (0 : Fin 1) j' := funext fun a => Fin.ext (by
      match a with
      | ⟨0, _⟩ => show win0_4.index t (0 : Fin 2) * 1 + 1 * 0 = 0; rw [e40]
      | ⟨1, _⟩ => show win0_4.index t (1 : Fin 2) * 512 + 1 * j'.val = j'.val; rw [e41]; omega)
    rw [he]; exact found_b2 m c j'
  · show (j 1).val = win0_5.index t (1 : Fin 2) * 512 + 1 * (j 1).val
    rw [e51]; omega

/-- An index of the result array is in point `t`'s block iff each coordinate is in the block's range on its axis. -/
theorem mem_blk (t : Fin cfg0.N) (i : S10000x512.Idx) :
    i ∈ ((cfg0.win 5).blk t).view.set ↔ ∀ a : Fin 2, win0_5.index t a * S1000x512.size a ≤ (i a).val
      ∧ (i a).val < win0_5.index t a * S1000x512.size a + S1000x512.size a := by
  show i ∈ ((View.whole main_v22).slice (win0_5.rect t)).set ↔ _
  rw [View.set_slice_whole, Rect.mem_set_unit]
  exact Iff.rfl

/-- The result array after the run is the two dense layers of the aggregated features: row `r` is in the block of
    point `r / 1000`. -/
theorem final (c : Dev nD) :
    (dats m 0 c).arrAt 5 cfg0.N = Cert.Gin.mlp (V m c main_v17) (m ((c : Thread nD τ).loc main_arg2))
      (m ((c : Thread nD τ).loc main_arg3)) (m ((c : Thread nD τ).loc main_arg4)) (m ((c : Thread nD τ).loc main_arg5)) :=
  (dats m 0 c).arrAt_eq_of_cover 5 _ (fun t _ => flushed_eq m c t) fun i => by
    have hN : grid0.N = 10 := N_0
    have hi0 : (i 0).val < 10000 := (i 0).isLt
    have hi1 : (i 1).val < 512 := (i 1).isLt
    have ht : (i 0).val / 1000 < grid0.N := by rw [hN]; omega
    obtain ⟨_, _, _, _, _, _, _, _, _, _, e50, e51⟩ := idx_facts ⟨(i 0).val / 1000, ht⟩
    refine ⟨⟨(i 0).val / 1000, ht⟩, flush0_5 _, ?_⟩
    rw [mem_blk]
    intro a
    match a with
    | ⟨0, _⟩ =>
      show win0_5.index ⟨(i 0).val / 1000, ht⟩ (0 : Fin 2) * 1000 ≤ (i 0).val
        ∧ (i 0).val < win0_5.index ⟨(i 0).val / 1000, ht⟩ (0 : Fin 2) * 1000 + 1000
      rw [e50]; show (i 0).val / 1000 * 1000 ≤ (i 0).val ∧ (i 0).val < (i 0).val / 1000 * 1000 + 1000; omega
    | ⟨1, _⟩ =>
      show win0_5.index ⟨(i 0).val / 1000, ht⟩ (1 : Fin 2) * 512 ≤ (i 1).val
        ∧ (i 1).val < win0_5.index ⟨(i 0).val / 1000, ht⟩ (1 : Fin 2) * 512 + 512
      rw [e51]; omega

/-- The run, read: the result array at the two dense layers of the aggregated features, the arguments unchanged. -/
theorem run : θ_run defs (onTc (τ := τ) (main (F := Ideal))) ⟨m, fun _ => 0, ρ⟩ fun r => ∀ c : Dev nD,
      r.2.mem ((c : Thread nD τ).loc main_v22) = Cert.Gin.mlp (agg (m ((c : Thread nD τ).loc main_arg0)) (m ((c : Thread nD τ).loc main_arg1)))
          (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by rw [found_features])), (h c).2⟩)
    (Cert.KernelIdeal.Value.run_blocks m ρ)

end Cert.KernelIdeal.Hand

end
-- ==== Proof.RefMlp.lean ====
/-
  The reference program's result, read entry by entry, is the two dense layers applied to its aggregated features.

  The reference computes `x = h + agg` (its stage 14), then `x · W₁`, adds `b₁` along the rows, takes the maximum with
  zero, multiplies by `W₂` and adds `b₂`. Each of those stages reads at an entry from its operands at an entry: a matrix
  product as the sum over the contracted position, a bias as the vector at the column, the rectifier's zero as the
  zero word. Composing the readings gives `Cert.Gin.mlp` of stage 14.
-/
import proofs.«132687_j44882408243752_2_alg».proof.Proof.Gen.ReferenceIdeal.Read
import proofs.«132687_j44882408243752_2_alg».proof.Proof.Mlp

noncomputable section

namespace Cert.ReferenceIdeal.RefValue

open Cert.ReferenceIdeal Cert.ReferenceIdeal.Gen Cert.ReferenceIdeal.Read Idealize.ShloMosaic Idealize.ShloMosaic.ValueIdx

/-- The reference's last stage is the two dense layers of its stage 14 (`h + agg`). -/
theorem result_is_mlp (x0 : (⟨S10000x512, .f32⟩ : BufTy).Contents (Elt Ideal)) (x1 : (⟨S2x160000, .i32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v23 (F := Ideal) x0 x1 x2 x3 x4 x5 = Cert.Gin.mlp (val_main_v14 (F := Ideal) x0 x1) x2 x3 x4 x5 := by
  funext i
  obtain ⟨r, j, rfl⟩ : ∃ (r : Fin 10000) (j : Fin 512), i = ix2 r j := ⟨i 0, i 1, eq_ix2 i⟩
  have e1 : ∀ k c : Fin 512, lidx_main_v15 (lidx_main_v20 (ix2 r j) k) c = ix2 r c := fun k c =>
    funext fun a => Fin.ext (by match a with | ⟨0, _⟩ => rfl | ⟨1, _⟩ => rfl)
  have e2 : ∀ k c : Fin 512, ridx_main_v15 (lidx_main_v20 (ix2 r j) k) c = ix2 c k := fun k c =>
    funext fun a => Fin.ext (by match a with | ⟨0, _⟩ => rfl | ⟨1, _⟩ => rfl)
  have e3 : ∀ k : Fin 512, idx_main_v16 (idx_main_v17 (lidx_main_v20 (ix2 r j) k)) = ix1 k := fun k =>
    funext fun a => Fin.ext (by match a with | ⟨0, _⟩ => rfl)
  have e4 : ∀ k : Fin 512, ridx_main_v20 (ix2 r j) k = ix2 k j := fun k =>
    funext fun a => Fin.ext (by match a with | ⟨0, _⟩ => rfl | ⟨1, _⟩ => rfl)
  have e5 : idx_main_v21 (idx_main_v22 (ix2 r j)) = ix1 j :=
    funext fun a => Fin.ext (by match a with | ⟨0, _⟩ => rfl)
  rw [Cert.Gin.mlp_entry, val_main_v23_apply, val_main_v20_apply, val_main_v22_apply, val_main_v21_apply, e5]
  simp only [val_main_v19_apply, val_main_v18_apply, val_main_v15_apply, val_main_v17_apply, val_main_v16_apply,
    val_main_call0_v0_apply, val_main_call0_cst_apply, e1, e2, e3, e4, Ideal.addf_def, Ideal.maximumf_def,
    Ideal.ofBits_def, Ideal.ofBits_zero_f32, Cert.Gin.outRow, Cert.Gin.hidden]

end Cert.ReferenceIdeal.RefValue

end
-- ==== Proof.LibScatterWrap.lean ====
/-
  Two facts about an accumulating scatter `x = h + (sum of the update rows that land on each row)` at the ideal values, for
  any shapes and dimension numbers.

  * Accumulating updates into a base array is the base plus the same updates accumulated into zeros: at the ideal
    values an accumulating scatter is, entry by entry, the operand's entry plus the sum of the updates whose target is
    that entry, and the zero word's value is `0`.
  * Wrapping a negative index by the number of rows (`idx < 0 ? idx + n : idx`) changes nothing when no index is
    negative.
-/
import Idealize.ShloMosaic.PureOps.Ideal
import Idealize.ShloMosaic.PureOps.Ideal.Laws
import Idealize.ShloMosaic.Lib.IdealHost
import Idealize.ShloMosaic.Lib.Pipeline.Value

noncomputable section

namespace Cert.Lib.ScatterWrap

open Idealize.ShloMosaic Idealize.ShloMosaic.ValueIdx

/-- An accumulating scatter into `x` is `x` plus the same scatter into the all-zero array. -/
theorem scatterAdd_base {s si su : Shape} {w : Nat} (d : ScatterDims s si su) (x : FVec Ideal s .f32) (idx : IVec si w)
    (upd : FVec Ideal su .f32) (h0 : (⟨0, ![]⟩ : Shape).BroadcastsInDim s ![]) :
    Host.scatterAdd d x idx upd
      = addf x (Host.scatterAdd d (broadcastInDim s ![] h0 (constant (F := Ideal) ⟨0, ![]⟩ .f32 0x00000000#32)) idx upd) := by
  funext i
  show Ideal.hostScatterAdd d x idx upd i
    = x i + Ideal.hostScatterAdd d (broadcastInDim s ![] h0 (constant (F := Ideal) ⟨0, ![]⟩ .f32 0x00000000#32)) idx upd i
  unfold Ideal.hostScatterAdd
  rw [broadcastInDim_scalar_apply]
  show _ = x i + (Ideal.ofBits .f32 0x00000000#32 + _)
  rw [Ideal.ofBits_zero_f32, zero_add]

/-- A 32-bit word that is at least zero as a signed number is not below zero. -/
theorem not_slt_zero (r : BitVec 32) (h : IntOp.cmpi .sge r 0#32 = 1#1) : IntOp.cmpi .slt r 0#32 ≠ 1 := by
  unfold IntOp.cmpi at h ⊢
  dsimp only at h ⊢
  cases hb : (0#32 : BitVec 32).sle r with
  | false => rw [hb] at h; exact absurd h (by decide)
  | true =>
    have hs : r.slt 0#32 = false := by
      rw [BitVec.sle, decide_eq_true_eq] at hb
      rw [BitVec.slt, decide_eq_false_iff_not]
      omega
    rw [hs]; decide

/-- Wrapping the negative entries of an index vector (`idx < 0 ? z : idx`, against any all-zero vector) leaves it as it
    was when every entry is at least zero. -/
theorem wrap_of_nonneg {S : Shape} (r z zero zero' : IVec S 32) (hz : ∀ i, zero i = 0#32) (hz' : ∀ i, zero' i = 0#32)
    (h : ∀ i, cmpi .sge r zero i = 1#1) :
    select (cmpi .slt r zero') z r = r := by
  funext i
  have hi : IntOp.cmpi .sge (r i) (zero i) = 1#1 := h i
  rw [hz i] at hi
  show Scalar.select (IntOp.cmpi .slt (r i) (zero' i)) (z i) (r i) = r i
  rw [hz' i]
  unfold Scalar.select
  exact if_neg (not_slt_zero (r i) hi)

end Cert.Lib.ScatterWrap

end
-- ==== Proof.Receivers.lean ====
/-
  Where the two programs' aggregation steps meet.

  The kernel's program wraps negative receiver indices by the number of rows before accumulating onto the node
  features; the reference accumulates the same gathered rows into zeros at the unwrapped receiver indices and adds the
  node features afterwards. Under the precondition no receiver index is negative, so the wrap changes nothing and both
  accumulate the same rows at the same places; accumulating onto the features is then the features plus the
  accumulation into zeros.
-/
import proofs.«132687_j44882408243752_2_alg».proof.Pre_finite_inputs
import proofs.«132687_j44882408243752_2_alg».proof.Proof.Gen.Pre_finite_inputs
import proofs.«132687_j44882408243752_2_alg».proof.Proof.Gen.ReferenceIdeal.Read
import proofs.«132687_j44882408243752_2_alg».proof.Proof.KernelAgg
import proofs.«132687_j44882408243752_2_alg».proof.Proof.LibScatterWrap
import Idealize.ShloMosaic.Lib.ReduceAll
import Idealize.ShloMosaic.Lib.Affine

noncomputable section

namespace Cert.Proof.Receivers

open Idealize.ShloMosaic Idealize.ShloMosaic.ValueIdx

instance : Subsingleton Cert.Pre_finite_inputs.S_.Idx := ⟨fun a b => funext fun d => d.elim0⟩

/-- The precondition's last conjunct: every receiver index is at least zero. -/
theorem receivers_nonneg (x0 : FVec Ideal Cert.Pre_finite_inputs.S10000x512 .f32) (e : IVec Cert.Pre_finite_inputs.S2x160000 32)
    (x2 : FVec Ideal Cert.Pre_finite_inputs.S512x512 .f32) (x3 : FVec Ideal Cert.Pre_finite_inputs.S512 .f32)
    (x4 : FVec Ideal Cert.Pre_finite_inputs.S512x512 .f32) (x5 : FVec Ideal Cert.Pre_finite_inputs.S512 .f32)
    (h : Cert.Pre_finite_inputs.fn (F := Ideal) x0 e x2 x3 x4 x5 = fun _ => 1#1) :
    ∀ i, cmpi .sge
      (shapeCast Cert.Pre_finite_inputs.S160000
        (extractStridedSlice Cert.Pre_finite_inputs.S1x160000 ![1, 0] e Cert.Pre_finite_inputs.Facts.slices_S2x160000_S1x160000_1_0)
        Cert.Pre_finite_inputs.Facts.shapeCasts_S1x160000_S160000)
      (broadcastInDim Cert.Pre_finite_inputs.S160000 ![] Cert.Pre_finite_inputs.Facts.bcast_S_S160000
        (constantI Cert.Pre_finite_inputs.S_ 32 0#32)) i = 1#1 := by
  have h1 := congrFun h ix0
  unfold Cert.Pre_finite_inputs.fn Cert.Pre_finite_inputs.fn_part1 at h1
  dsimp only at h1
  have h2 := (IntOp.andi_eq_one.1 h1).2
  intro i
  exact Host.reduce_andi_all _ _ _ _ ix0 h2 i

open Cert.KernelIdeal Cert.KernelIdeal.Gen in
/-- With no negative receiver index the kernel program's aggregated features are the reference's `h + agg`. -/
theorem agg_eq (x0 : FVec Ideal S10000x512 .f32) (e : IVec S2x160000 32)
    (hnn : ∀ i, cmpi .sge
      (shapeCast S160000 (extractStridedSlice S1x160000 ![1, 0] e slices_S2x160000_S1x160000_1_0) shapeCasts_S1x160000_S160000)
      (broadcastInDim S160000 ![] bcast_S_S160000 (constantI S_ 32 0#32)) i = 1#1) :
    Cert.KernelIdeal.Hand.agg x0 e = Cert.ReferenceIdeal.Read.val_main_v14 (F := Ideal) x0 e := by
  have hw := Cert.Lib.ScatterWrap.wrap_of_nonneg (S := S160000)
    (shapeCast S160000 (extractStridedSlice S1x160000 ![1, 0] e slices_S2x160000_S1x160000_1_0) shapeCasts_S1x160000_S160000)
    (addi (shapeCast S160000 (extractStridedSlice S1x160000 ![1, 0] e slices_S2x160000_S1x160000_1_0) shapeCasts_S1x160000_S160000)
      (broadcastInDim S160000 ![] bcast_S_S160000 (constantI S_ 32 10000#32)))
    (broadcastInDim S160000 ![] bcast_S_S160000 (constantI S_ 32 0#32))
    (broadcastInDim S160000 ![] bcast_S_S160000 (constantI S_ 32 0#32))
    (fun i => broadcastInDim_scalar_apply bcast_S_S160000 (constantI S_ 32 0#32) i)
    (fun i => broadcastInDim_scalar_apply bcast_S_S160000 (constantI S_ 32 0#32) i) (by intro i; exact hnn i)
  unfold Cert.KernelIdeal.Hand.agg
  rw [hw, Cert.Lib.ScatterWrap.scatterAdd_base _ _ _ _ Cert.ReferenceIdeal.Gen.bcast_S_S10000x512]
  rfl

end Cert.Proof.Receivers

end
-- ==== Proof.lean ====
/-
  A message-passing layer: every node's feature row plus the sum of the feature rows of the nodes that send to it,
  then two dense layers, `relu (x · W₁ + b₁) · W₂ + b₂`, over 10000 nodes of 512 features and 160000 edges.

  The kernel's program and the reference agree, entry by entry over the extended reals, because

  * the aggregation is one accumulating scatter in both: the kernel's program accumulates the gathered sender rows
    onto the features, the reference accumulates them into zeros and adds the features, and on the extended reals
    the first is the features plus the second (`Cert.Lib.ScatterWrap.scatterAdd_base`). The kernel's program wraps negative
    receiver indices by the number of rows where the reference drops them, so the two meet when no receiver index is
    negative — which the precondition states, and which is all of the precondition this proof uses
    (`Cert.Proof.Receivers.agg_eq`);
  * the dense layers are the same sums of products: the kernel computes them block by block, 1000 rows at a time, on
    the matrix unit with its operands' float format narrowed (the identity here), the reference with two whole
    matrix products; each result entry is `Cert.Gin.mlp` of the aggregated features on both sides
    (`Cert.KernelIdeal.Hand.run`, `Cert.ReferenceIdeal.RefValue.result_is_mlp`). No law that needs finite entries is
    used.

  The three programs run, fault nowhere and leave their arguments as they were: the two kernel programs by their frame
  runs, the reference by its run read back. No operation was rewritten on the way to the idealized kernel.
-/
import proofs.«132687_j44882408243752_2_alg».proof.Defs
import proofs.«132687_j44882408243752_2_alg».proof.Proof.Gen.Kernel
import proofs.«132687_j44882408243752_2_alg».proof.Proof.Gen.Kernel.Skeleton
import proofs.«132687_j44882408243752_2_alg».proof.Proof.Gen.Kernel.Launch
import proofs.«132687_j44882408243752_2_alg».proof.Proof.Gen.Kernel.Points
import proofs.«132687_j44882408243752_2_alg».proof.Proof.Gen.Kernel.Frame
import proofs.«132687_j44882408243752_2_alg».proof.Proof.Gen.KernelIdeal
import proofs.«132687_j44882408243752_2_alg».proof.Proof.Gen.KernelIdeal.Skeleton
import proofs.«132687_j44882408243752_2_alg».proof.Proof.Gen.KernelIdeal.Launch
import proofs.«132687_j44882408243752_2_alg».proof.Proof.Gen.KernelIdeal.Points
import proofs.«132687_j44882408243752_2_alg».proof.Proof.Gen.KernelIdeal.Frame
import proofs.«132687_j44882408243752_2_alg».proof.Proof.Gen.ReferenceIdeal
import proofs.«132687_j44882408243752_2_alg».proof.Proof.Gen.KernelIdeal.Value
import proofs.«132687_j44882408243752_2_alg».proof.Proof.Gen.ReferenceIdeal.Run
import proofs.«132687_j44882408243752_2_alg».proof.Proof.Gen.ReferenceIdeal.Read
import proofs.«132687_j44882408243752_2_alg».proof.Proof.Gen.Pre_finite_inputs
import proofs.«132687_j44882408243752_2_alg».proof.Proof.Blocks
import proofs.«132687_j44882408243752_2_alg».proof.Proof.RefMlp
import proofs.«132687_j44882408243752_2_alg».proof.Proof.Receivers
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel program and its idealization. -/
theorem preserves : Cert.preserves_Kernel_KernelIdeal := trivial

/-- Both idealized programs end with the two dense layers of the aggregated features, and the aggregated features
    are the same array on both sides when no receiver index is negative. -/
theorem algebraic : Cert.algebraic_KernelIdeal_ReferenceIdeal := by
  intro m ρ m' ρ' hpre hagree
  refine ⟨fun c => Cert.Gin.mlp
      (Cert.KernelIdeal.Hand.agg (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v23_eq, Cert.ReferenceIdeal.RefValue.result_is_mlp, a0, a1, a2, a3, a4, a5]
  dsimp only
  rw [Cert.Proof.Receivers.agg_eq _ _ (Cert.Proof.Receivers.receivers_nonneg _ _ _ _ _ _ (hpre c))]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
